-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S128x32 : Shape := ⟨2, ![128, 32]⟩
abbrev S32 : Shape := ⟨1, ![32]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S64x4096x128 .f32) (main_arg1 : FVec F S128x32 .f32) (main_arg2 : FVec F S32 .f32) (main_arg3 : FVec F S32 .f32) (main_arg4 : FVec F S32 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S128x32 .f32 := Host.absf main_arg1
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_v13 main_v16
-- ==== Kernel.lean ====
abbrev S64x4096x128 : Shape := ⟨3, ![64, 4096, 128]⟩
abbrev S128x32 : Shape := ⟨2, ![128, 32]⟩
abbrev S32 : Shape := ⟨1, ![32]⟩
abbrev S1x32 : Shape := ⟨2, ![1, 32]⟩
abbrev S64x4096x32 : Shape := ⟨3, ![64, 4096, 32]⟩
abbrev S64x256x128 : Shape := ⟨3, ![64, 256, 128]⟩
abbrev S64x256x32 : Shape := ⟨3, ![64, 256, 32]⟩
abbrev S16384x128 : Shape := ⟨2, ![16384, 128]⟩
abbrev S16384x32 : Shape := ⟨2, ![16384, 32]⟩
abbrev S1x1x32 : Shape := ⟨3, ![1, 1, 32]⟩
abbrev S64x1x32 : Shape := ⟨3, ![64, 1, 32]⟩

abbrev nBuf : Space → Nat
  | .hbm => 9
  | .vmem => 8
  | .smem => 0
  | _ => 0

abbrev bufTy : (tb : Table) → Fin (tcTables nBuf tb) → BufTy
  | .hbm, ⟨0, _⟩ => ⟨S64x4096x128, .f32⟩
  | .hbm, ⟨1, _⟩ => ⟨S128x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S1x32, .f32⟩
  | .hbm, ⟨6, _⟩ => ⟨S1x32, .f32⟩
  | .hbm, ⟨7, _⟩ => ⟨S1x32, .f32⟩
  | .hbm, ⟨8, _⟩ => ⟨S64x4096x32, .f32⟩
  | .local _ .vmem, ⟨0, _⟩ => ⟨S64x256x128, .f32⟩
  | .local _ .vmem, ⟨1, _⟩ => ⟨S64x256x128, .f32⟩
  | .local _ .vmem, ⟨2, _⟩ => ⟨S128x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S64x256x32, .f32⟩
  | .local _ .vmem, ⟨7, _⟩ => ⟨S64x256x32, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32_S1x32 : S32.ShapeCasts S1x32
  inb_S64x256x128_S64x256x128_0_0_0 : ∀ a, (![0, 0, 0] : Fin 3 → Nat) a + S64x256x128.size a ≤ S64x256x128.size a
  h_S64x256x128 : 0 < S64x256x128.numel
  bitsLt_bf16_f32 : FTy.bits .bf16 < FTy.bits .f32
  shapeCasts_S64x256x128_S16384x128 : S64x256x128.ShapeCasts S16384x128
  inb_S128x32_S128x32_0_0 : ∀ a, (![0, 0] : Fin 2 → Nat) a + S128x32.size a ≤ S128x32.size a
  h_S128x32 : 0 < S128x32.numel
  shapeCasts_S16384x32_S64x256x32 : S16384x32.ShapeCasts S64x256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S1x32_S1x1x32 : S1x32.ShapeCasts S1x1x32
  broadcasts_S1x1x32_S64x256x32 : S1x1x32.Broadcasts S64x256x32
  inb_S64x256x32_S64x256x32_0_0_0 : ∀ a, (![0, 0, 0] : Fin 3 → Nat) a + S64x256x32.size a ≤ S64x256x32.size a
  h_S64x256x32 : 0 < S64x256x32.numel
  inb_S64x256x32_S64x1x32_0_0_0 : ∀ a, (![0, 0, 0] : Fin 3 → Nat) a + S64x1x32.size a ≤ S64x256x32.size a
  h_S64x1x32 : 0 < S64x1x32.numel
  shapeCasts_S64x1x32_S64x1x32 : S64x1x32.ShapeCasts S64x1x32
  broadcasts_S1x1x32_S64x1x32 : S1x1x32.Broadcasts S64x1x32
  inb_S64x256x32_S64x1x32_0_255_0 : ∀ a, (![0, 255, 0] : Fin 3 → Nat) a + S64x1x32.size a ≤ S64x256x32.size a
  dot_S16384x128_S128x32_S16384x32_1_0_0_1_n_n_wf : DotDims.WF S16384x128 S128x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x128.size a ≤ S64x4096x128.size a
  hwx0_0 : ∀ i : grid0.Coords, EltTy.bits .f32 = 32 ∨ (Rect.block (s := S64x4096x128) S64x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256x32.size a ≤ S64x4096x32.size a
  hwx0_5 : ∀ i : grid0.Coords, EltTy.bits .f32 = 32 ∨ (Rect.block (s := S64x4096x32) S64x256x32.size (cc0_transform_5 i) (hinb0_5 i)).WholeWords (EltTy.packing .f32)

variable [Facts₀]

def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf

abbrev win0_0 : Pipeline.Window sig grid0 :=
  Pipeline.Window.ofSpec (Memref.whole main_arg0) S64x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x256x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S128x32 : Shape := ⟨2, ![128, 32]⟩
abbrev S32 : Shape := ⟨1, ![32]⟩
abbrev S64x4096x32 : Shape := ⟨3, ![64, 4096, 32]⟩
abbrev S1x1x32 : Shape := ⟨3, ![1, 1, 32]⟩
abbrev S_ : Shape := ⟨0, ![]⟩
abbrev S1 : Shape := ⟨1, ![1]⟩
abbrev S64x32 : Shape := ⟨2, ![64, 32]⟩

abbrev nBuf : Space → Nat
  | .hbm => 17
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S128x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S64x4096x32, .f32⟩
  | .hbm, ⟨6, _⟩ => ⟨S1x1x32, .f32⟩
  | .hbm, ⟨7, _⟩ => ⟨S64x4096x32, .f32⟩
  | .hbm, ⟨8, _⟩ => ⟨S64x4096x32, .f32⟩
  | .hbm, ⟨9, _⟩ => ⟨S_, .i32⟩
  | .hbm, ⟨10, _⟩ => ⟨S1, .i32⟩
  | .hbm, ⟨11, _⟩ => ⟨S64x32, .f32⟩
  | .hbm, ⟨12, _⟩ => ⟨S64x4096x32, .f32⟩
  | .hbm, ⟨13, _⟩ => ⟨S_, .i32⟩
  | .hbm, ⟨14, _⟩ => ⟨S1, .i32⟩
  | .hbm, ⟨15, _⟩ => ⟨S64x32, .f32⟩
  | .hbm, ⟨16, _⟩ => ⟨S64x4096x32, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S64x4096x32_0_1_2 : S1x1x32.BroadcastsInDim S64x4096x32 (![0, 1, 2] : Fin 3 → Fin S64x4096x32.rank)
  bcast_S_S1 : S_.BroadcastsInDim S1 (![] : Fin 0 → Fin S1.rank)
  bcast_S32_S64x32_1 : S32.BroadcastsInDim S64x32 (![1] : Fin 1 → Fin S64x32.rank)
  dot_S64x4096x128_S128x32_S64x4096x32_2_0_01_1_n_n_wf : DotDims.WF S64x4096x128 S128x32 S64x4096x32 [2] [0] [0, 1] [1] [] []
  scatter_S64x4096x32_S1_S64x32_01_1_1_0_wf : ScatterDims.WF S64x4096x32 S1 S64x32 [0, 1] [1] [1] 0

variable [Facts₀]

def dot_S64x4096x128_S128x32_S64x4096x32_2_0_01_1_n_n : DotDims S64x4096x128 S128x32 S64x4096x32 where
  lhsContracting := [2]
  rhsContracting := [0]
  lhsNonContracting := [0, 1]
  rhsNonContracting := [1]
  lhsBatch := []
  rhsBatch := []
  wf := dot_S64x4096x128_S128x32_S64x4096x32_2_0_01_1_n_n_wf
def scatter_S64x4096x32_S1_S64x32_01_1_1_0 : ScatterDims S64x4096x32 S1 S64x32 where
  updateWindowDims := [0, 1]
  insertedWindowDims := [1]
  scatterDimsToOperandDims := [1]
  indexVectorDim := 0
  wf := scatter_S64x4096x32_S1_S64x32_01_1_1_0_wf

class Facts : Prop extends Facts₀ where

variable [Facts]
-- ==== Proof.Pieces.lean ====
/-
  What one grid step leaves in the output block, read element by element, for any float instance.

  Every step first stores P = (the block of X against K, plus b) over the whole [64, 256, 32] block. The first step then
  reads row 0 of the block back — so it reads row 0 of P — adds l to it and stores the sum over row 0; the last step does
  the same with row 255 and r; the steps between do nothing more. So the block ends as P, except that in the first
  step its row 0, and in the last step its row 255, is the second store's value.
-/
import proofs.«159666_j48103633715862_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Row `q` of a [64, 256, 32] block, as a [64, 1, 32] vector. -/
def rowOf (q : Fin 256) (P : Vec F S64x256x32 .f32) : Vec F S64x1x32 .f32 :=
  fun x => P (ix3 (n0 := 64) (n1 := 256) (n2 := 32) (x 0) q (x 2))

/-- A step that is neither the first nor the last leaves its one store's value. -/
theorem out_B (c : Dev nD) (i : grid0.Coords) (a1 : Memref sig .tc .vmem S64x256x128 .f32) (h1 : a1.IsWhole) (a2 : Memref sig .tc .vmem S128x32 .f32) (h2 : a2.IsWhole) (a3 : Memref sig .tc .vmem S1x32 .f32) (h3 : a3.IsWhole) (a4 : Memref sig .tc .vmem S1x32 .f32) (h4 : a4.IsWhole) (a5 : Memref sig .tc .vmem S1x32 .f32) (h5 : a5.IsWhole) (a6 : Memref sig .tc .vmem S64x256x32 .f32) (h6 : a6.IsWhole) (hc0 : ¬cond0_0 i) (hc1 : ¬cond0_1 i) (x0 : Vec F S64x256x128 .f32) (x1 : Vec F S128x32 .f32) (x2 : Vec F S1x32 .f32) (x3 : Vec F S1x32 .f32) (x4 : Vec F S1x32 .f32) :
    out0_B_5 c i a1 h1 a2 h2 a3 h3 a4 h4 a5 h5 a6 h6 hc0 hc1 x0 x1 x2 x3 x4 = k0_pay1 x0 x1 x2 := by
  unfold out0_B_5
  rw [View.read_writes_eq_canon _ _ _ (cover0_B_5 c i a1 h1 a2 h2 a3 h3 a4 h4 a5 h5 a6 h6 hc0 hc1 x0 x1 x2 x3 x4)]
  unfold kernelRun0_B
  dsimp only
  rw [View.canon_unit_zero hz3]
  simp only [View.readAt_eq_ld, h1.read_unread, h2.read_unread, h3.read_unread,
    View.ld_unit_zero (S := S64x256x128) hz3, View.ld_unit_zero (S := S128x32) hz2, View.ld_unit_zero (S := S1x32) hz2]

/-- The first step: row 0 is the second store's value, over row 0 of the first store's; the other rows are the first
    store's. -/
theorem out_A (c : Dev nD) (i : grid0.Coords) (a1 : Memref sig .tc .vmem S64x256x128 .f32) (h1 : a1.IsWhole) (a2 : Memref sig .tc .vmem S128x32 .f32) (h2 : a2.IsWhole) (a3 : Memref sig .tc .vmem S1x32 .f32) (h3 : a3.IsWhole) (a4 : Memref sig .tc .vmem S1x32 .f32) (h4 : a4.IsWhole) (a5 : Memref sig .tc .vmem S1x32 .f32) (h5 : a5.IsWhole) (a6 : Memref sig .tc .vmem S64x256x32 .f32) (h6 : a6.IsWhole) (hc0 : cond0_0 i) (hc1 : ¬cond0_1 i) (x0 : Vec F S64x256x128 .f32) (x1 : Vec F S128x32 .f32) (x2 : Vec F S1x32 .f32) (x3 : Vec F S1x32 .f32) (x4 : Vec F S1x32 .f32) (p : Fin 64) (q : Fin 256) (u : Fin 32) :
    out0_A_5 c i a1 h1 a2 h2 a3 h3 a4 h4 a5 h5 a6 h6 hc0 hc1 x0 x1 x2 x3 x4 (ix3 p q u)
      = if q.val = 0 then k0_pay2 (rowOf 0 (k0_pay1 x0 x1 x2)) x3 (ix3 p (0 : Fin 1) u) else k0_pay1 x0 x1 x2 (ix3 p q u) := by
  unfold out0_A_5
  rw [View.read_writes_eq_canon _ _ _ (cover0_A_5 c i a1 h1 a2 h2 a3 h3 a4 h4 a5 h5 a6 h6 hc0 hc1 x0 x1 x2 x3 x4)]
  unfold kernelRun0_A
  dsimp only
  sl_unfold_words
  simp only [View.readAt_eq_ld, h1.read_unread, h2.read_unread, h3.read_unread, h4.read_unread,
    View.ld_unit_zero (S := S64x256x128) hz3, View.ld_unit_zero (S := S128x32) hz2, View.ld_unit_zero (S := S1x32) hz2]
  rw [View.readCov_eq_canon_ld _ _ _ (fun y => ⟨_, List.mem_singleton_self _, View.mem_set_unit_zero hz3 inb_S64x256x32_S64x256x32_0_0_0 y⟩),
    View.canon_unit_zero hz3]
  by_cases hq : q.val = 0
  · rw [if_pos hq]
    have e : (ix3 p q u : S64x256x32.Idx)
        = (Rect.unit (s := S64x256x32) ![0, 0, 0] ![64, 1, 32] inb_S64x256x32_S64x1x32_0_0_0).emb (ix3 p (0 : Fin 1) u) :=
      funext fun a => Fin.ext (by
        match a with
        | ⟨0, _⟩ => show p.val = 0 + 1 * p.val; omega
        | ⟨1, _⟩ => show q.val = 0 + 1 * 0; omega
        | ⟨2, _⟩ => show u.val = 0 + 1 * u.val; omega)
    refine (congrArg (View.canon _) e).trans ?_
    rw [View.canon_cons_emb]
    refine congrArg (fun v => k0_pay2 v x3 (ix3 p (0 : Fin 1) u)) (funext fun x => ?_)
    refine congrArg (k0_pay1 x0 x1 x2) (funext fun a => Fin.ext ?_)
    match a with
    | ⟨0, _⟩ => show 0 + 1 * (x 0).val = (x 0).val; omega
    | ⟨1, _⟩ => show 0 + 1 * (x 1).val = 0; have := (x 1).isLt; have : (x 1).val < 1 := this; omega
    | ⟨2, _⟩ => show 0 + 1 * (x 2).val = (x 2).val; omega
  · rw [if_neg hq, View.canon_cons_of_not_mem _ _ (fun hm => hq ?_), View.canon_unit_zero hz3]
    have hm' : (ix3 p q u : S64x256x32.Idx)
        ∈ (Rect.unit (s := S64x256x32) ![0, 0, 0] ![64, 1, 32] inb_S64x256x32_S64x1x32_0_0_0).set := hm
    have h' : (0 : Nat) ≤ q.val ∧ q.val < 0 + 1 := (Rect.mem_set_unit.mp hm') (1 : Fin 3)
    omega

/-- The last step: row 255 is the second store's value, over row 255 of the first store's; the other rows are the
    first store's. -/
theorem out_C (c : Dev nD) (i : grid0.Coords) (a1 : Memref sig .tc .vmem S64x256x128 .f32) (h1 : a1.IsWhole) (a2 : Memref sig .tc .vmem S128x32 .f32) (h2 : a2.IsWhole) (a3 : Memref sig .tc .vmem S1x32 .f32) (h3 : a3.IsWhole) (a4 : Memref sig .tc .vmem S1x32 .f32) (h4 : a4.IsWhole) (a5 : Memref sig .tc .vmem S1x32 .f32) (h5 : a5.IsWhole) (a6 : Memref sig .tc .vmem S64x256x32 .f32) (h6 : a6.IsWhole) (hc0 : ¬cond0_0 i) (hc1 : cond0_1 i) (x0 : Vec F S64x256x128 .f32) (x1 : Vec F S128x32 .f32) (x2 : Vec F S1x32 .f32) (x3 : Vec F S1x32 .f32) (x4 : Vec F S1x32 .f32) (p : Fin 64) (q : Fin 256) (u : Fin 32) :
    out0_C_5 c i a1 h1 a2 h2 a3 h3 a4 h4 a5 h5 a6 h6 hc0 hc1 x0 x1 x2 x3 x4 (ix3 p q u)
      = if q.val = 255 then k0_pay3 (rowOf 255 (k0_pay1 x0 x1 x2)) x4 (ix3 p (0 : Fin 1) u) else k0_pay1 x0 x1 x2 (ix3 p q u) := by
  unfold out0_C_5
  rw [View.read_writes_eq_canon _ _ _ (cover0_C_5 c i a1 h1 a2 h2 a3 h3 a4 h4 a5 h5 a6 h6 hc0 hc1 x0 x1 x2 x3 x4)]
  unfold kernelRun0_C
  dsimp only
  sl_unfold_words
  simp only [View.readAt_eq_ld, h1.read_unread, h2.read_unread, h3.read_unread, h5.read_unread,
    View.ld_unit_zero (S := S64x256x128) hz3, View.ld_unit_zero (S := S128x32) hz2, View.ld_unit_zero (S := S1x32) hz2]
  rw [View.readCov_eq_canon_ld _ _ _ (fun y => ⟨_, List.mem_singleton_self _, View.mem_set_unit_zero hz3 inb_S64x256x32_S64x256x32_0_0_0 y⟩),
    View.canon_unit_zero hz3]
  by_cases hq : q.val = 255
  · rw [if_pos hq]
    have e : (ix3 p q u : S64x256x32.Idx)
        = (Rect.unit (s := S64x256x32) ![0, 255, 0] ![64, 1, 32] inb_S64x256x32_S64x1x32_0_255_0).emb (ix3 p (0 : Fin 1) u) :=
      funext fun a => Fin.ext (by
        match a with
        | ⟨0, _⟩ => show p.val = 0 + 1 * p.val; omega
        | ⟨1, _⟩ => show q.val = 255 + 1 * 0; omega
        | ⟨2, _⟩ => show u.val = 0 + 1 * u.val; omega)
    refine (congrArg (View.canon _) e).trans ?_
    rw [View.canon_cons_emb]
    refine congrArg (fun v => k0_pay3 v x4 (ix3 p (0 : Fin 1) u)) (funext fun x => ?_)
    refine congrArg (k0_pay1 x0 x1 x2) (funext fun a => Fin.ext ?_)
    match a with
    | ⟨0, _⟩ => show 0 + 1 * (x 0).val = (x 0).val; omega
    | ⟨1, _⟩ => show 255 + 1 * (x 1).val = 255; have : (x 1).val < 1 := (x 1).isLt; omega
    | ⟨2, _⟩ => show 0 + 1 * (x 2).val = (x 2).val; omega
  · rw [if_neg hq, View.canon_cons_of_not_mem _ _ (fun hm => hq ?_), View.canon_unit_zero hz3]
    have hm' : (ix3 p q u : S64x256x32.Idx)
        ∈ (Rect.unit (s := S64x256x32) ![0, 255, 0] ![64, 1, 32] inb_S64x256x32_S64x1x32_0_255_0).set := hm
    have h' : (255 : Nat) ≤ q.val ∧ q.val < 255 + 1 := (Rect.mem_set_unit.mp hm') (1 : Fin 3)
    omega

end Cert.KernelIdeal.Pieces

end
-- ==== Proof.Payload.lean ====
/-
  The stores' values at the extended reals, element by element.

  The first store's value at (p, q, u) of the [64, 256, 32] block is the product of row 256·p + q of the flattened
  [16384, 128] block of X with column u of K — the sum over the 128 contracted positions, into a zero accumulator — plus
  b[0, u]; flattening sends (p, q, k) to (256·p + q, k) and back, both ways the same row-major position, and rounding to
  a narrower format is the identity on the extended reals. The second store's value at (p, 0, u) of a [64, 1, 32] row
  is the row's element there plus the row vector's element at (0, u).
-/
import proofs.«159666_j48103633715862_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The contraction's dimension numbers: [16384, 128] against [128, 32], axis 1 against axis 0. -/
abbrev D : DotDims S16384x128 S128x32 S16384x32 := dot_S16384x128_S128x32_S16384x32_1_0_0_1_n_n

/-- The flattened row of (p, q): 256·p + q. -/
def flat (p : Fin 64) (q : Fin 256) : Fin 16384 := ⟨p.val * 256 + q.val, by have := p.isLt; have := q.isLt; omega⟩

theorem lhs_0 (j : S16384x32.Idx) (k : D.contr.Idx) : (D.lhsIdx j k 0).val = (j 0).val := by
  unfold DotDims.lhsIdx
  rw [dif_neg (show ¬(0 : Fin S16384x128.rank) ∈ D.lhsBatch by decide),
    dif_pos (show (0 : Fin S16384x128.rank) ∈ D.lhsNonContracting by decide)]
  rfl
theorem lhs_1 (j : S16384x32.Idx) (k : D.contr.Idx) : (D.lhsIdx j k 1).val = (k ⟨0, by decide⟩).val :=
  D.lhsIdx_val_of_single rfl j k
theorem rhs_0 (j : S16384x32.Idx) (k : D.contr.Idx) : (D.rhsIdx j k 0).val = (k ⟨0, by decide⟩).val :=
  D.rhsIdx_val_of_single rfl j k
theorem rhs_1 (j : S16384x32.Idx) (k : D.contr.Idx) : (D.rhsIdx j k 1).val = (j 1).val := by
  unfold DotDims.rhsIdx
  rw [dif_neg (show ¬(1 : Fin S128x32.rank) ∈ D.rhsBatch by decide),
    dif_pos (show (1 : Fin S128x32.rank) ∈ D.rhsNonContracting by decide)]
  rfl

/-- The matrix product into a zero accumulator, at (r, u): the sum over the contracted position. -/
theorem product_apply (A : FVec Ideal S16384x128 .bf16) (B : FVec Ideal S128x32 .bf16) (r : Fin 16384) (u : Fin 32) :
    matmul D none A B (constant (F := Ideal) S16384x32 .f32 0x00000000#32) (ix2 r u)
      = ∑ k : Fin 128, A (ix2 r k) * B (ix2 k u) := by
  show FloatOps.matmul D none A B (constant (F := Ideal) S16384x32 .f32 0x00000000#32) (ix2 r u) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 r u) ((contrEquiv1 D 128 rfl rfl).symm k) = ix2 r k := funext fun a => Fin.ext (by
    match a with
    | ⟨0, _⟩ => exact lhs_0 _ _
    | ⟨1, _⟩ => exact (lhs_1 _ _).trans hk)
  have er : D.rhsIdx (ix2 r u) ((contrEquiv1 D 128 rfl rfl).symm k) = ix2 k u := funext fun a => Fin.ext (by
    match a with
    | ⟨0, _⟩ => exact (rhs_0 _ _).trans hk
    | ⟨1, _⟩ => exact rhs_1 _ _)
  rw [el, er]

/-- Unflattening the product: (p, q, u) of the [64, 256, 32] block reads (256·p + q, u). -/
theorem unflatten_apply {α : Type} (M : S16384x32.Idx → α) (h : S16384x32.ShapeCasts S64x256x32) (p : Fin 64) (q : Fin 256) (u : Fin 32) :
    shapeCast S64x256x32 M h (ix3 p q u) = M (ix2 (flat p q) u) := by
  refine shapeCast_apply M h (ix3 p q u) (ix2 (flat p q) u) ?_
  rw [Shape.rowMajor_val_two, Shape.rowMajor_val_three]
  show (p.val * 256 + q.val) * 32 + u.val = (p.val * 256 + q.val) * 32 + u.val
  rfl

/-- Flattening the block of X: (256·p + q, k) of the [16384, 128] matrix reads (p, q, k). -/
theorem flatten_apply {α : Type} (A : S64x256x128.Idx → α) (h : S64x256x128.ShapeCasts S16384x128) (p : Fin 64) (q : Fin 256) (k : Fin 128) :
    shapeCast S16384x128 A h (ix2 (flat p q) k) = A (ix3 p q k) := by
  refine shapeCast_apply A h (ix2 (flat p q) k) (ix3 p q k) ?_
  rw [Shape.rowMajor_val_two, Shape.rowMajor_val_three]
  show (p.val * 256 + q.val) * 128 + k.val = (p.val * 256 + q.val) * 128 + k.val
  rfl

/-- A [1, 32] row vector seen as [1, 1, 32] and repeated over [n, m, 32]: (p, q, u) reads (0, u). -/
theorem rowvec_apply {α : Type} {n m : Nat} (x : S1x32.Idx → α) (h1 : S1x32.ShapeCasts S1x32) (h2 : S1x32.ShapeCasts S1x1x32)
    (h3 : S1x1x32.Broadcasts ⟨3, ![n, m, 32]⟩) (p : Fin n) (q : Fin m) (u : Fin 32) :
    broadcastTo ⟨3, ![n, m, 32]⟩ (shapeCast S1x1x32 (shapeCast S1x32 x h1) h2) h3 (ix3 p q u) = x (ix2 (0 : Fin 1) u) := by
  rw [shapeCast_self]
  refine (broadcastTo_apply _ h3 (ix3 p q u) (ix3 (0 : Fin 1) (0 : Fin 1) u) (fun a => ?_)).trans ?_
  · match a with
    | ⟨0, _⟩ => rfl
    | ⟨1, _⟩ => rfl
    | ⟨2, _⟩ => rfl
  · refine shapeCast_apply x h2 (ix3 (0 : Fin 1) (0 : Fin 1) u) (ix2 (0 : Fin 1) u) ?_
    rw [Shape.rowMajor_val_two, Shape.rowMajor_val_three]
    show 0 * 32 + u.val = (0 * 1 + 0) * 32 + u.val
    omega

/-- The first store's value at (p, q, u). -/
theorem pay1_apply (x0 : Vec Ideal S64x256x128 .f32) (x1 : Vec Ideal S128x32 .f32) (x2 : Vec Ideal S1x32 .f32)
    (p : Fin 64) (q : Fin 256) (u : Fin 32) :
    k0_pay1 (F := Ideal) x0 x1 x2 (ix3 p q u)
      = (∑ k : Fin 128, x0 (ix3 p q k) * x1 (ix2 k u)) + x2 (ix2 (0 : Fin 1) u) := by
  unfold k0_pay1
  refine (addf_apply _ _ _).trans ?_
  refine congrArg₂ (· + ·) ?_ ?_
  · refine (unflatten_apply _ _ p q u).trans ?_
    refine (product_apply _ _ (flat p q) u).trans ?_
    refine Finset.sum_congr rfl fun k _ => ?_
    refine congrArg₂ (· * ·) ?_ rfl
    exact flatten_apply _ _ p q k
  · exact rowvec_apply x2 _ _ _ p q u

/-- The second store's value, in the first step, at (p, 0, u) of the row. -/
theorem pay2_apply (v : Vec Ideal S64x1x32 .f32) (x3 : Vec Ideal S1x32 .f32) (p : Fin 64) (u : Fin 32) :
    k0_pay2 (F := Ideal) v x3 (ix3 p (0 : Fin 1) u) = v (ix3 p (0 : Fin 1) u) + x3 (ix2 (0 : Fin 1) u) := by
  unfold k0_pay2
  refine (addf_apply _ _ _).trans ?_
  refine congrArg₂ (· + ·) ?_ ?_
  · rw [shapeCast_self]
  · exact rowvec_apply x3 _ _ _ p (0 : Fin 1) u

/-- The second store's value, in the last step, at (p, 0, u) of the row. -/
theorem pay3_apply (v : Vec Ideal S64x1x32 .f32) (x4 : Vec Ideal S1x32 .f32) (p : Fin 64) (u : Fin 32) :
    k0_pay3 (F := Ideal) v x4 (ix3 p (0 : Fin 1) u) = v (ix3 p (0 : Fin 1) u) + x4 (ix2 (0 : Fin 1) u) := by
  unfold k0_pay3
  refine (addf_apply _ _ _).trans ?_
  refine congrArg₂ (· + ·) ?_ ?_
  · rw [shapeCast_self]
  · exact rowvec_apply x4 _ _ _ p (0 : Fin 1) u

end Cert.KernelIdeal.Payload

end
-- ==== Proof.Energy.lean ====
/-
  The specification. For X : [64, 4096, 128], K : [128, 32] and three row vectors b, l, r : [32] over the extended reals,
  the array E : [64, 4096, 32] with

      E[p, q, u] = (∑ₖ X[p, q, k] · K[k, u]) + b[u]            for 0 < q < 4095,
      E[p, 0, u] = ((∑ₖ X[p, 0, k] · K[k, u]) + b[u]) + l[u],
      E[p, 4095, u] = ((∑ₖ X[p, 4095, k] · K[k, u]) + b[u]) + r[u]:

  an affine map along the last axis, with one more row vector added on the first and on the last row of the middle axis.
  Both programs compute the sums in exactly this association, so no law of the extended reals beyond the meaning of the
  operations is needed, and no finiteness.
-/
import Idealize.ShloMosaic.PureOps.Ideal
import Idealize.ShloMosaic.Lib.ValueIdx

noncomputable section

open scoped BigOperators

namespace Cert.Energy

open Idealize.ShloMosaic Idealize.ShloMosaic.ValueIdx

/-- The shapes of the three kinds of argument and of the result. -/
abbrev SX : Shape := ⟨3, ![64, 4096, 128]⟩
abbrev SK : Shape := ⟨2, ![128, 32]⟩
abbrev SV : Shape := ⟨1, ![32]⟩
abbrev SE : Shape := ⟨3, ![64, 4096, 32]⟩

/-- The affine part at (p, q, u): the row X[p, q, :] against the column K[:, u], plus b[u]. -/
def affineAt (X : SX.Idx → EReal) (K : SK.Idx → EReal) (b : SV.Idx → EReal) (p : Fin 64) (q : Fin 4096) (u : Fin 32) : EReal :=
  (∑ k : Fin 128, X (ix3 p q k) * K (ix2 k u)) + b (ix1 u)

/-- The result at (p, q, u): the affine part, plus l[u] on the row q = 0, plus r[u] on the row q = 4095. -/
def energyAt (X : SX.Idx → EReal) (K : SK.Idx → EReal) (b l r : SV.Idx → EReal) (p : Fin 64) (q : Fin 4096) (u : Fin 32) : EReal :=
  if q.val = 0 then affineAt X K b p q u + l (ix1 u)
  else if q.val = 4095 then affineAt X K b p q u + r (ix1 u)
  else affineAt X K b p q u

/-- The whole result array. -/
def energy (X : SX.Idx → EReal) (K : SK.Idx → EReal) (b l r : SV.Idx → EReal) : SE.Idx → EReal :=
  fun i => energyAt X K b l r (i 0) (i 1) (i 2)

theorem energy_ix3 (X : SX.Idx → EReal) (K : SK.Idx → EReal) (b l r : SV.Idx → EReal) (p : Fin 64) (q : Fin 4096) (u : Fin 32) :
    energy X K b l r (ix3 p q u) = energyAt X K b l r p q u := rfl

/-- On the first row. -/
theorem energyAt_first (X : SX.Idx → EReal) (K : SK.Idx → EReal) (b l r : SV.Idx → EReal) (p : Fin 64) (q : Fin 4096) (u : Fin 32)
    (hq : q.val = 0) : energyAt X K b l r p q u = affineAt X K b p q u + l (ix1 u) := by
  unfold energyAt; rw [if_pos hq]

/-- On the last row. -/
theorem energyAt_last (X : SX.Idx → EReal) (K : SK.Idx → EReal) (b l r : SV.Idx → EReal) (p : Fin 64) (q : Fin 4096) (u : Fin 32)
    (hq : q.val = 4095) : energyAt X K b l r p q u = affineAt X K b p q u + r (ix1 u) := by
  unfold energyAt; rw [if_neg (by omega), if_pos hq]

/-- On every other row. -/
theorem energyAt_inner (X : SX.Idx → EReal) (K : SK.Idx → EReal) (b l r : SV.Idx → EReal) (p : Fin 64) (q : Fin 4096) (u : Fin 32)
    (h0 : q.val ≠ 0) (h1 : q.val ≠ 4095) : energyAt X K b l r p q u = affineAt X K b p q u := by
  unfold energyAt; rw [if_neg h0, if_neg h1]

end Cert.Energy

end
-- ==== Proof.BlockValue.lean ====
/-
  What grid step t leaves in the output block is the specification's array on the rows 256·t … 256·t + 255.

  At step t the block of X holds X[p, 256·t + q, k] at (p, q, k); the blocks of K and of the three row vectors are the
  whole arrays at every step (the row vectors seen as [1, 32]: a host reshape, the same row-major position). So the first
  store's value at (p, q, u) is the affine part at (p, 256·t + q, u). Step 0 adds l on its row 0, which is the array's row
  0; step 15 adds r on its row 255, which is the array's row 4095; the rows of the steps between are neither.
-/
import proofs.«159666_j48103633715862_1_alg».proof.Proof.Gen.KernelIdeal.Frame
import proofs.«159666_j48103633715862_1_alg».proof.Proof.Pieces
import proofs.«159666_j48103633715862_1_alg».proof.Proof.Payload
import proofs.«159666_j48103633715862_1_alg».proof.Proof.Energy
import Idealize.ShloMosaic.Lib.Pipeline.Value
import Idealize.ShloMosaic.Lib.ValueIdx
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.BlockValue

open Cert.KernelIdeal Cert.KernelIdeal.Gen

variable (m : (ℓ : Loc nD τ sig) → Buf (Elt Ideal) ℓ)

/-- The five argument arrays as launched, on core `c`. -/
abbrev aX (c : Dev nD) : S64x4096x128.Idx → EReal := m ((c : Thread nD τ).loc main_arg0)
abbrev aK (c : Dev nD) : S128x32.Idx → EReal := m ((c : Thread nD τ).loc main_arg1)
abbrev ab (c : Dev nD) : S32.Idx → EReal := m ((c : Thread nD τ).loc main_arg2)
abbrev al (c : Dev nD) : S32.Idx → EReal := m ((c : Thread nD τ).loc main_arg3)
abbrev ar (c : Dev nD) : S32.Idx → EReal := m ((c : Thread nD τ).loc main_arg4)

/-- The specification's array of the arguments as launched. -/
def G (c : Dev nD) : S64x4096x32.Idx → EReal :=
  Cert.Energy.energy (aX m c) (aK m c) (ab m c) (al m c) (ar m c)

/-- The block indices over the grid: the blocks of X and of the result move along the middle axis with the step; the
    other four windows' blocks never move. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

/-- Row `q` of step `t`'s block is row 256·t + q of the array. -/
def row (t : Fin cfg0.N) (q : Fin 256) : Fin 4096 :=
  ⟨t.val * 256 + q.val, by have := t.isLt; have hN : cfg0.N = 16 := N_0; have := q.isLt; omega⟩

theorem row_val (t : Fin cfg0.N) (q : Fin 256) : (row t q).val = t.val * 256 + q.val := rfl

/-! ## The input blocks at an index -/

theorem blk_X (c : Dev nD) (t : Fin cfg0.N) (p : Fin 64) (q : Fin 256) (k : Fin 128) :
    iblk m c 0 t (ix3 p q k) = aX m c (ix3 p (row t q) k) := by
  obtain ⟨e0, e1, e2, -⟩ := idx_facts t
  show V m c main_arg0 (((cfg0.win 0).blk t).view.emb (ix3 p q k)) = _
  rw [V_main_arg0]
  refine congrArg (m ((c : Thread nD τ).loc main_arg0)) (funext fun a => Fin.ext ?_)
  match a with
  | ⟨0, _⟩ => show win0_0.index t (0 : Fin 3) * 64 + 1 * p.val = p.val; rw [e0]; omega
  | ⟨1, _⟩ => show win0_0.index t (1 : Fin 3) * 256 + 1 * q.val = t.val * 256 + q.val; rw [e1]; omega
  | ⟨2, _⟩ => show win0_0.index t (2 : Fin 3) * 128 + 1 * k.val = k.val; rw [e2]; omega

theorem blk_K (c : Dev nD) (t : Fin cfg0.N) (k : Fin 128) (u : Fin 32) :
    iblk m c 1 t (ix2 k u) = aK m c (ix2 k u) := by
  obtain ⟨-, -, -, e0, e1, -⟩ := idx_facts t
  show V m c main_arg1 (((cfg0.win 1).blk t).view.emb (ix2 k u)) = _
  rw [V_main_arg1]
  refine congrArg (m ((c : Thread nD τ).loc main_arg1)) (funext fun a => Fin.ext ?_)
  match a with
  | ⟨0, _⟩ => show win0_1.index t (0 : Fin 2) * 128 + 1 * k.val = k.val; rw [e0]; omega
  | ⟨1, _⟩ => show win0_1.index t (1 : Fin 2) * 32 + 1 * u.val = u.val; rw [e1]; omega

/-- A [32] vector seen as [1, 32]: (0, u) reads u. -/
theorem rowvec_read {α : Type} (x : S32.Idx → α) (h : S32.ShapeCasts S1x32) (u : Fin 32) :
    shapeCast S1x32 x h (ix2 (0 : Fin 1) u) = x (ix1 u) := by
  refine shapeCast_apply x h (ix2 (0 : Fin 1) u) (ix1 u) ?_
  rw [Shape.rowMajor_val_one, Shape.rowMajor_val_two]
  show u.val = 0 * 32 + u.val
  omega

/-- The three [1, 32] arrays the region finds are the host's reshapes of the three [32] arguments. -/
theorem V_b (c : Dev nD) (h : S32.ShapeCasts S1x32) :
    (V m c main_v0 : S1x32.Idx → EReal) = shapeCast S1x32 (ab m c) h := by
  dsimp only [Gen.V, Gen.hostOps0]; after_results; rfl
theorem V_l (c : Dev nD) (h : S32.ShapeCasts S1x32) :
    (V m c main_v1 : S1x32.Idx → EReal) = shapeCast S1x32 (al m c) h := by
  dsimp only [Gen.V, Gen.hostOps0]; after_results; rfl
theorem V_r (c : Dev nD) (h : S32.ShapeCasts S1x32) :
    (V m c main_v2 : S1x32.Idx → EReal) = shapeCast S1x32 (ar m c) h := by
  dsimp only [Gen.V, Gen.hostOps0]; after_results; rfl

theorem blk_b (c : Dev nD) (t : Fin cfg0.N) (u : Fin 32) :
    iblk m c 2 t (ix2 (0 : Fin 1) u) = ab m c (ix1 u) := by
  obtain ⟨-, -, -, -, -, e0, e1, -⟩ := idx_facts t
  show V m c main_v0 (((cfg0.win 2).blk t).view.emb (ix2 (0 : Fin 1) u)) = _
  rw [V_b m c Facts₀.shapeCasts_S32_S1x32]
  refine (congrArg _ (?_ : ((cfg0.win 2).blk t).view.emb (ix2 (0 : Fin 1) u) = ix2 (0 : Fin 1) u)).trans (rowvec_read _ _ u)
  funext a; apply Fin.ext
  match a with
  | ⟨0, _⟩ => show win0_2.index t (0 : Fin 2) * 1 + 1 * 0 = 0; rw [e0]
  | ⟨1, _⟩ => show win0_2.index t (1 : Fin 2) * 32 + 1 * u.val = u.val; rw [e1]; omega

theorem blk_l (c : Dev nD) (t : Fin cfg0.N) (u : Fin 32) :
    iblk m c 3 t (ix2 (0 : Fin 1) u) = al m c (ix1 u) := by
  obtain ⟨-, -, -, -, -, -, -, e0, e1, -⟩ := idx_facts t
  show V m c main_v1 (((cfg0.win 3).blk t).view.emb (ix2 (0 : Fin 1) u)) = _
  rw [V_l m c Facts₀.shapeCasts_S32_S1x32]
  refine (congrArg _ (?_ : ((cfg0.win 3).blk t).view.emb (ix2 (0 : Fin 1) u) = ix2 (0 : Fin 1) u)).trans (rowvec_read _ _ u)
  funext a; apply Fin.ext
  match a with
  | ⟨0, _⟩ => show win0_3.index t (0 : Fin 2) * 1 + 1 * 0 = 0; rw [e0]
  | ⟨1, _⟩ => show win0_3.index t (1 : Fin 2) * 32 + 1 * u.val = u.val; rw [e1]; omega

theorem blk_r (c : Dev nD) (t : Fin cfg0.N) (u : Fin 32) :
    iblk m c 4 t (ix2 (0 : Fin 1) u) = ar m c (ix1 u) := by
  obtain ⟨-, -, -, -, -, -, -, -, -, e0, e1, -⟩ := idx_facts t
  show V m c main_v2 (((cfg0.win 4).blk t).view.emb (ix2 (0 : Fin 1) u)) = _
  rw [V_r m c Facts₀.shapeCasts_S32_S1x32]
  refine (congrArg _ (?_ : ((cfg0.win 4).blk t).view.emb (ix2 (0 : Fin 1) u) = ix2 (0 : Fin 1) u)).trans (rowvec_read _ _ u)
  funext a; apply Fin.ext
  match a with
  | ⟨0, _⟩ => show win0_4.index t (0 : Fin 2) * 1 + 1 * 0 = 0; rw [e0]
  | ⟨1, _⟩ => show win0_4.index t (1 : Fin 2) * 32 + 1 * u.val = u.val; rw [e1]; omega

/-! ## The stores' values at a step -/

/-- The first store's value at step `t`, at (p, q, u): the affine part at (p, 256·t + q, u). -/
theorem first_store (c : Dev nD) (t : Fin cfg0.N) (p : Fin 64) (q : Fin 256) (u : Fin 32) :
    k0_pay1 (F := Ideal) (iblk m c 0 t) (iblk m c 1 t) (iblk m c 2 t) (ix3 p q u)
      = Cert.Energy.affineAt (aX m c) (aK m c) (ab m c) p (row t q) u := by
  refine (Payload.pay1_apply (iblk m c 0 t) (iblk m c 1 t) (iblk m c 2 t) p q u).trans ?_
  unfold Cert.Energy.affineAt
  exact congrArg₂ (· + ·)
    (Finset.sum_congr rfl fun k _ => congrArg₂ (· * ·) (blk_X m c t p q k) (blk_K m c t k u)) (blk_b m c t u)

/-- What step `t` leaves at (p, q, u) of the block is the specification's array at (p, 256·t + q, u). -/
theorem outsAt_apply (c : Dev nD) (t : Fin cfg0.N) (p : Fin 64) (q : Fin 256) (u : Fin 32) :
    outsAt0 m c t.val t.isLt (ix3 p q u) = G m c (ix3 p (row t q) u) := by
  have hN : cfg0.N = 16 := N_0
  have ht : t.val < 16 := hN ▸ t.isLt
  have hq : q.val < 256 := q.isLt
  have hrow := row_val t q
  show _ = Cert.Energy.energyAt (aX m c) (aK m c) (ab m c) (al m c) (ar m c) p (row t q) u
  by_cases h0 : t.val % 16 = 0
  · have h1 : ¬t.val % 16 = 15 := by omega
    rw [outsAt0_A m c t h0 h1]
    refine (Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      ((hcond0_0 t).mpr h0) (fun h => h1 ((hcond0_1 t).mp h)) (iblk m c 0 t) (iblk m c 1 t) (iblk m c 2 t) (iblk m c 3 t) (iblk m c 4 t) p q u).trans ?_
    by_cases hq0 : q.val = 0
    · rw [if_pos hq0, Cert.Energy.energyAt_first _ _ _ _ _ p (row t q) u (by omega)]
      refine (Payload.pay2_apply _ (iblk m c 3 t) p u).trans ?_
      refine congrArg₂ (· + ·) ?_ (blk_l m c t u)
      obtain rfl : q = 0 := Fin.ext hq0
      exact first_store m c t p 0 u
    · rw [if_neg hq0, Cert.Energy.energyAt_inner _ _ _ _ _ p (row t q) u (by omega) (by omega)]
      exact first_store m c t p q u
  · by_cases h1 : t.val % 16 = 15
    · rw [outsAt0_C m c t h0 h1]
      refine (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
        (fun h => h0 ((hcond0_0 t).mp h)) ((hcond0_1 t).mpr h1) (iblk m c 0 t) (iblk m c 1 t) (iblk m c 2 t) (iblk m c 3 t) (iblk m c 4 t) p q u).trans ?_
      by_cases hq1 : q.val = 255
      · rw [if_pos hq1, Cert.Energy.energyAt_last _ _ _ _ _ p (row t q) u (by omega)]
        refine (Payload.pay3_apply _ (iblk m c 4 t) p u).trans ?_
        refine congrArg₂ (· + ·) ?_ (blk_r m c t u)
        obtain rfl : q = 255 := Fin.ext hq1
        exact first_store m c t p 255 u
      · rw [if_neg hq1, Cert.Energy.energyAt_inner _ _ _ _ _ p (row t q) u (by omega) (by omega)]
        exact first_store m c t p q u
    · rw [outsAt0_B m c t h0 h1]
      refine (congrFun (Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
        (fun h => h0 ((hcond0_0 t).mp h)) (fun h => h1 ((hcond0_1 t).mp h)) (iblk m c 0 t) (iblk m c 1 t) (iblk m c 2 t) (iblk m c 3 t) (iblk m c 4 t)) (ix3 p q u)).trans ?_
      rw [Cert.Energy.energyAt_inner _ _ _ _ _ p (row t q) u (by omega) (by omega)]
      exact first_store m c t p q u

end Cert.KernelIdeal.BlockValue

end
-- ==== Proof.ArrayValue.lean ====
/-
  After the run the kernel's result array is the specification's array.

  Every grid step writes its block back, and what step t writes back is rows 256·t … 256·t + 255 of the specification's
  array. The sixteen blocks tile the middle axis — row i₁ lies in the block of step i₁ / 256 — so every element of the
  result array is written, with the specification's value.
-/
import proofs.«159666_j48103633715862_1_alg».proof.Proof.Gen.KernelIdeal.Value
import proofs.«159666_j48103633715862_1_alg».proof.Proof.BlockValue
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.BlockValue

variable (m : (ℓ : Loc nD τ sig) → Buf (Elt Ideal) ℓ) (ρ : Dev nD → PrngReg)

/-- What step `t` writes back is its block of the specification's array. -/
theorem flushed_eq (c : Dev nD) (t : Fin cfg0.N) :
    (dats m 0 c).flushed 5 t = ((cfg0.win 5).blk t).view.read (Elt Ideal) (G m c) := by
  obtain ⟨-, -, -, -, -, -, -, -, -, -, -, e0, e1, e2⟩ := idx_facts t
  rw [Cert.KernelIdeal.Value.flushed5]
  funext y
  have hy0 : (y 0).val < 64 := (y 0).isLt
  have hy1 : (y 1).val < 256 := (y 1).isLt
  have hy2 : (y 2).val < 32 := (y 2).isLt
  have e_in : (cfg0.win 5).xinj (grid0.coords t) y
      = ix3 (⟨(y 0).val, hy0⟩ : Fin 64) (⟨(y 1).val, hy1⟩ : Fin 256) (⟨(y 2).val, hy2⟩ : Fin 32) :=
    funext fun a => Fin.ext (by match a with | ⟨0, _⟩ => rfl | ⟨1, _⟩ => rfl | ⟨2, _⟩ => rfl)
  have e_out : ((cfg0.win 5).blk t).view.emb y
      = ix3 (⟨(y 0).val, hy0⟩ : Fin 64) (row t ⟨(y 1).val, hy1⟩) (⟨(y 2).val, hy2⟩ : Fin 32) :=
    funext fun a => Fin.ext (by
      match a with
      | ⟨0, _⟩ => show win0_5.index t (0 : Fin 3) * 64 + 1 * (y 0).val = (y 0).val; rw [e0]; omega
      | ⟨1, _⟩ => show win0_5.index t (1 : Fin 3) * 256 + 1 * (y 1).val = t.val * 256 + (y 1).val; rw [e1]; omega
      | ⟨2, _⟩ => show win0_5.index t (2 : Fin 3) * 32 + 1 * (y 2).val = (y 2).val; rw [e2]; omega)
  show outsAt0 m c t.val t.isLt ((cfg0.win 5).xinj (grid0.coords t) y) = G m c (((cfg0.win 5).blk t).view.emb y)
  rw [e_in, e_out]
  exact outsAt_apply m c t _ _ _

/-- An element of the array is in step `t`'s block iff each coordinate is in the block's range on its axis. -/
theorem mem_blk (t : Fin cfg0.N) (i : S64x4096x32.Idx) :
    i ∈ ((cfg0.win 5).blk t).view.set ↔ ∀ a : Fin 3, win0_5.index t a * S64x256x32.size a ≤ (i a).val
      ∧ (i a).val < win0_5.index t a * S64x256x32.size a + S64x256x32.size a := by
  show i ∈ ((View.whole main_v3).slice (win0_5.rect t)).set ↔ _
  rw [View.set_slice_whole, Rect.mem_set_unit]
  exact Iff.rfl

/-- Every element of the array is in the block of the step its row falls in. -/
theorem cover (i : S64x4096x32.Idx) :
    ∃ t : Fin cfg0.N, (cfg0.win 5).flush t = true ∧ i ∈ ((cfg0.win 5).blk t).view.set := by
  have hN : cfg0.N = 16 := N_0
  have hi0 : (i 0).val < 64 := (i 0).isLt
  have hi1 : (i 1).val < 4096 := (i 1).isLt
  have hi2 : (i 2).val < 32 := (i 2).isLt
  have hlt : (i 1).val / 256 < cfg0.N := by omega
  obtain ⟨-, -, -, -, -, -, -, -, -, -, -, e0, e1, e2⟩ := idx_facts ⟨(i 1).val / 256, hlt⟩
  have e1' : win0_5.index ⟨(i 1).val / 256, hlt⟩ (1 : Fin 3) = (i 1).val / 256 := e1
  refine ⟨⟨(i 1).val / 256, hlt⟩, flush0_5 _, ?_⟩
  rw [mem_blk]
  intro a
  match a with
  | ⟨0, _⟩ =>
    show win0_5.index ⟨(i 1).val / 256, hlt⟩ (0 : Fin 3) * 64 ≤ (i 0).val
      ∧ (i 0).val < win0_5.index ⟨(i 1).val / 256, hlt⟩ (0 : Fin 3) * 64 + 64
    rw [e0]; omega
  | ⟨1, _⟩ =>
    show win0_5.index ⟨(i 1).val / 256, hlt⟩ (1 : Fin 3) * 256 ≤ (i 1).val
      ∧ (i 1).val < win0_5.index ⟨(i 1).val / 256, hlt⟩ (1 : Fin 3) * 256 + 256
    rw [e1']; omega
  | ⟨2, _⟩ =>
    show win0_5.index ⟨(i 1).val / 256, hlt⟩ (2 : Fin 3) * 32 ≤ (i 2).val
      ∧ (i 2).val < win0_5.index ⟨(i 1).val / 256, hlt⟩ (2 : Fin 3) * 32 + 32
    rw [e2]; omega

/-- So the result array ends holding the specification's array. -/
theorem final (c : Dev nD) : (dats m 0 c).arrAt 5 cfg0.N = G m c :=
  (dats m 0 c).arrAt_eq_of_cover 5 (G m c) (fun t _ => flushed_eq m c t) cover

/-- The run, read: the result array at the specification's array of the arguments as launched, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.ArrayValue

end
-- ==== Proof.LibScatterFold.lean ====
/-
  A general fact about a scatter read at an index.

  The host's scatter is a left fold, over the update indices in row-major order, of single-point overwrites: the update
  with index j replaces the element at its result index ρ j by f (old element) (update j). When every update lands inside
  the operand and ρ is injective, each element of the result meets at most one update, so the fold can be read off
  directly:

      scatter x upd (ρ j) = f (x (ρ j)) (upd j),          scatter x upd i = x i   when no update lands on i.
-/
import Idealize.ShloMosaic.PureOps.ShapeOps

namespace Cert.ScatterFold

open Idealize.ShloMosaic

section fold

variable {ι κ α : Type} [DecidableEq κ] (f : α → α → α) (g : ι → κ) (v : ι → α)

/-- One overwrite: the value at `g n` becomes `f` of the old value there and `v n`; every other value stays. -/
def step (r : κ → α) (n : ι) : κ → α := fun i' => if i' = g n then f (r (g n)) (v n) else r i'

/-- A point none of the overwrites touches keeps its value through the fold. -/
theorem foldl_step_miss (i : κ) :
    ∀ (l : List ι) (x : κ → α), (∀ n ∈ l, g n ≠ i) → l.foldl (step f g v) x i = x i
  | [], _, _ => rfl
  | n :: l, x, h => by
    rw [List.foldl_cons, foldl_step_miss i l _ (fun n' hn' => h n' (List.mem_cons_of_mem _ hn'))]
    exact if_neg (fun e => h n List.mem_cons_self e.symm)

/-- When distinct overwrites touch distinct points and the list has no repeats, the point of overwrite `n` ends at
    `f` of its first value and `v n`: the overwrites before `n` and after it leave that point alone. -/
theorem foldl_step_hit (hg : Function.Injective g) (n : ι) :
    ∀ (l : List ι) (x : κ → α), l.Nodup → n ∈ l → l.foldl (step f g v) x (g n) = f (x (g n)) (v n)
  | [], _, _, h => absurd h List.not_mem_nil
  | a :: l, x, hnd, h => by
    rw [List.foldl_cons]
    have hnd' := List.nodup_cons.mp hnd
    rcases List.mem_cons.mp h with rfl | h'
    · rw [foldl_step_miss f g v (g n) l _ (fun n' hn' e => hnd'.1 (hg e ▸ hn'))]
      exact if_pos rfl
    · rw [foldl_step_hit hg n l _ hnd'.2 h']
      have hne : g n ≠ g a := fun e => hnd'.1 (hg e ▸ h')
      show f (if g n = g a then _ else x (g n)) (v n) = _
      rw [if_neg hne]

end fold

variable {s si u : Shape} {α : Type} {w : Nat}

/-- With every update inside the operand (`ρ` its result index), the scatter is the fold of the overwrites at `ρ`. -/
theorem scatter_eq_foldl (d : ScatterDims s si u) (f : α → α → α) (x : s.Idx → α) (idx : IVec si w) (upd : u.Idx → α)
    (ρ : u.Idx → s.Idx) (hρ : ∀ j, d.resultIdx? j idx = some (ρ j)) :
    Host.scatter d f x idx upd
      = (List.finRange u.numel).foldl (step f (fun n => ρ (u.rowMajor.symm n)) (fun n => upd (u.rowMajor.symm n))) x := by
  unfold Host.scatter
  refine congrArg (fun st => List.foldl st x (List.finRange u.numel)) ?_
  funext r n
  rw [hρ]
  rfl

/-- The scatter at the result index of update `j`, when distinct updates land on distinct elements. -/
theorem scatter_hit (d : ScatterDims s si u) (f : α → α → α) (x : s.Idx → α) (idx : IVec si w) (upd : u.Idx → α)
    (ρ : u.Idx → s.Idx) (hρ : ∀ j, d.resultIdx? j idx = some (ρ j)) (hinj : Function.Injective ρ) (j : u.Idx) :
    Host.scatter d f x idx upd (ρ j) = f (x (ρ j)) (upd j) := by
  rw [scatter_eq_foldl d f x idx upd ρ hρ]
  have h := foldl_step_hit f (fun n => ρ (u.rowMajor.symm n)) (fun n => upd (u.rowMajor.symm n))
    (hinj.comp u.rowMajor.symm.injective) (u.rowMajor j) (List.finRange u.numel) x (List.nodup_finRange _) (List.mem_finRange _)
  simp only [Equiv.symm_apply_apply] at h
  exact h

/-- The scatter at an element no update lands on. -/
theorem scatter_miss (d : ScatterDims s si u) (f : α → α → α) (x : s.Idx → α) (idx : IVec si w) (upd : u.Idx → α)
    (ρ : u.Idx → s.Idx) (hρ : ∀ j, d.resultIdx? j idx = some (ρ j)) (i : s.Idx) (hi : ∀ j, ρ j ≠ i) :
    Host.scatter d f x idx upd i = x i := by
  rw [scatter_eq_foldl d f x idx upd ρ hρ]
  exact foldl_step_miss _ _ _ i _ x (fun n _ => hi _)

end Cert.ScatterFold
-- ==== Proof.RefEnergy.lean ====
/-
  The reference's result is the specification's array.

  The reference first forms the affine part — a contraction of X's last axis against K's first, plus b repeated over the
  two leading axes — and then scatters twice with addition: l, repeated over the 64 leading positions, at the single
  start row 0 of the middle axis, and r likewise at the single start row 4095. Each scatter's update (p, u) lands on
  (p, T, u) for its start row T: inside the array, and distinct updates on distinct elements; so each scatter adds its
  row vector on the row T and leaves every other row as it was.
-/
import proofs.«159666_j48103633715862_1_alg».proof.Proof.Gen.ReferenceIdeal.Read
import proofs.«159666_j48103633715862_1_alg».proof.Proof.LibScatterFold
import proofs.«159666_j48103633715862_1_alg».proof.Proof.Energy

noncomputable section

open scoped BigOperators
open Idealize.ShloMosaic Idealize.ShloMosaic.ValueIdx

namespace Cert.ReferenceIdeal.RefEnergy

open Cert.ReferenceIdeal Cert.ReferenceIdeal.Gen Cert.ReferenceIdeal.Read Cert.ScatterFold

/-- The scatters' dimension numbers: the update's two axes are window axes going to the array's axes 0 and 2, the
    array's axis 1 is the scattered one, and there is one start index. -/
abbrev Sc : ScatterDims S64x4096x32 S1 S64x32 := scatter_S64x4096x32_S1_S64x32_01_1_1_0

/-- Where update (p, u) lands for the start row `T`: (p, T, u). -/
def land (T : Fin 4096) (j : S64x32.Idx) : S64x4096x32.Idx :=
  ix3 (n0 := 64) (n1 := 4096) (n2 := 32) (j 0) T (j 1)

theorem land_inj (T : Fin 4096) : Function.Injective (land T) := fun j j' h => by
  funext a
  match a with
  | ⟨0, _⟩ => exact congrFun h (0 : Fin 3)
  | ⟨1, _⟩ => exact congrFun h (2 : Fin 3)

theorem start_0 (j : S64x32.Idx) (idx : IVec S1 32) : Sc.start j idx 0 = 0 := by
  unfold ScatterDims.start; rw [dif_neg (by decide)]
theorem start_1 (j : S64x32.Idx) (idx : IVec S1 32) (c : BitVec 32) (hidx : ∀ k, idx k = c) : Sc.start j idx 1 = c.toInt := by
  unfold ScatterDims.start; rw [dif_pos (by decide), hidx]
theorem start_2 (j : S64x32.Idx) (idx : IVec S1 32) : Sc.start j idx 2 = 0 := by
  unfold ScatterDims.start; rw [dif_neg (by decide)]
theorem window_0 (j : S64x32.Idx) : Sc.window j 0 = (j 0).val := by
  unfold ScatterDims.window; rw [dif_pos (by decide)]; rfl
theorem window_1 (j : S64x32.Idx) : Sc.window j 1 = 0 := by
  unfold ScatterDims.window; rw [dif_neg (by decide)]
theorem window_2 (j : S64x32.Idx) : Sc.window j 2 = (j 1).val := by
  unfold ScatterDims.window; rw [dif_pos (by decide)]; rfl

/-- With every start index the word `c`, read as the row `T`, update `j` lands on `land T j`, inside the array. -/
theorem resultIdx_eq (T : Fin 4096) (c : BitVec 32) (hc : c.toInt = (T.val : Int)) (idx : IVec S1 32) (hidx : ∀ k, idx k = c)
    (j : S64x32.Idx) : Sc.resultIdx? j idx = some (land T j) := by
  have e0 : Sc.start j idx 0 + Sc.window j 0 = ((j 0).val : Int) := by rw [start_0, window_0]; omega
  have e1 : Sc.start j idx 1 + Sc.window j 1 = (T.val : Int) := by rw [start_1 j idx c hidx, window_1, hc]; omega
  have e2 : Sc.start j idx 2 + Sc.window j 2 = ((j 1).val : Int) := by rw [start_2, window_2]; omega
  have h0 : (j 0).val < 64 := (j 0).isLt
  have h1 : (j 1).val < 32 := (j 1).isLt
  have hT : T.val < 4096 := T.isLt
  have h : ∀ a, 0 ≤ Sc.start j idx a + Sc.window j a ∧ Sc.start j idx a + Sc.window j a < S64x4096x32.size a := fun a => by
    match a with
    | ⟨0, _⟩ =>
      show (0 : Int) ≤ Sc.start j idx 0 + (Sc.window j 0 : Nat) ∧ Sc.start j idx 0 + (Sc.window j 0 : Nat) < ((64 : Nat) : Int)
      rw [e0]; omega
    | ⟨1, _⟩ =>
      show (0 : Int) ≤ Sc.start j idx 1 + (Sc.window j 1 : Nat) ∧ Sc.start j idx 1 + (Sc.window j 1 : Nat) < ((4096 : Nat) : Int)
      rw [e1]; omega
    | ⟨2, _⟩ =>
      show (0 : Int) ≤ Sc.start j idx 2 + (Sc.window j 2 : Nat) ∧ Sc.start j idx 2 + (Sc.window j 2 : Nat) < ((32 : Nat) : Int)
      rw [e2]; omega
  unfold ScatterDims.resultIdx?
  rw [dif_pos h]
  refine congrArg some (funext fun a => Fin.ext ?_)
  match a with
  | ⟨0, _⟩ => show (Sc.start j idx 0 + Sc.window j 0).toNat = (j 0).val; rw [e0]; omega
  | ⟨1, _⟩ => show (Sc.start j idx 1 + Sc.window j 1).toNat = T.val; rw [e1]; omega
  | ⟨2, _⟩ => show (Sc.start j idx 2 + Sc.window j 2).toNat = (j 1).val; rw [e2]; omega

/-- One scatter with addition at the single start row `T`, at (p, q, u): the update's (p, u) is added on the row q = T,
    and every other row is kept. -/
theorem scatter_row (T : Fin 4096) (c : BitVec 32) (hc : c.toInt = (T.val : Int)) (x : FVec Ideal S64x4096x32 .f32)
    (idx : IVec S1 32) (hidx : ∀ k, idx k = c) (upd : FVec Ideal S64x32 .f32) (p : Fin 64) (q : Fin 4096) (u : Fin 32) :
    Host.scatter Sc FloatOps.addf x idx upd (ix3 p q u)
      = if q.val = T.val then x (ix3 p q u) + upd (ix2 p u) else x (ix3 p q u) := by
  by_cases hq : q.val = T.val
  · obtain rfl : q = T := Fin.ext hq
    rw [if_pos rfl]
    exact scatter_hit Sc FloatOps.addf x idx upd (land q) (resultIdx_eq q c hc idx hidx) (land_inj q) (ix2 p u)
  · rw [if_neg hq]
    refine scatter_miss Sc FloatOps.addf x idx upd (land T) (resultIdx_eq T c hc idx hidx) (ix3 p q u) (fun j h => hq ?_)
    have h1 : T = q := congrFun h (1 : Fin 3)
    rw [h1]

/-- The affine part at (p, q, u). -/
theorem affine_apply (X : Vec Ideal S64x4096x128 .f32) (K : Vec Ideal S128x32 .f32) (b : Vec Ideal S32 .f32)
    (p : Fin 64) (q : Fin 4096) (u : Fin 32) :
    val_main_v3 (F := Ideal) X K b (ix3 p q u) = Cert.Energy.affineAt X K b p q u := by
  have el : ∀ k : Fin 128, lidx_main_v0 (ix3 p q u) k = ix3 p q k := fun k =>
    funext fun a => by match a with | ⟨0, _⟩ => rfl | ⟨1, _⟩ => rfl | ⟨2, _⟩ => rfl
  have er : ∀ k : Fin 128, ridx_main_v0 (ix3 p q u) k = ix2 k u := fun k =>
    funext fun a => by match a with | ⟨0, _⟩ => rfl | ⟨1, _⟩ => rfl
  have eb : idx_main_v1 (idx_main_v2 (ix3 p q u)) = ix1 u :=
    funext fun a => by match a with | ⟨0, _⟩ => rfl
  rw [val_main_v3_apply, val_main_v0_apply, val_main_v2_apply, val_main_v1_apply, eb]
  simp only [el, er, Ideal.addf_def]
  rfl

/-- The reference's result is the specification's array. -/
theorem result_eq (X : Vec Ideal S64x4096x128 .f32) (K : Vec Ideal S128x32 .f32) (b l r : Vec Ideal S32 .f32) :
    val_main_v9 (F := Ideal) X K b l r = Cert.Energy.energy X K b l r := by
  funext i
  obtain ⟨p, q, u, rfl⟩ : ∃ (p : Fin 64) (q : Fin 4096) (u : Fin 32), i = ix3 p q u := ⟨i 0, i 1, i 2, eq_ix3 i⟩
  have hl : val_main_v5 (F := Ideal) l (ix2 p u) = l (ix1 u) := by
    rw [val_main_v5_apply]
    exact congrArg l (funext fun a => by match a with | ⟨0, _⟩ => rfl)
  have hr : val_main_v8 (F := Ideal) r (ix2 p u) = r (ix1 u) := by
    rw [val_main_v8_apply]
    exact congrArg r (funext fun a => by match a with | ⟨0, _⟩ => rfl)
  rw [Cert.Energy.energy_ix3]
  unfold val_main_v9
  rw [scatter_row ⟨4095, by decide⟩ 4095#32 (by decide) _ _
    (fun k => by rw [val_main_v7_apply, val_main_c_0_apply]) _ p q u]
  unfold val_main_v6
  rw [scatter_row ⟨0, by decide⟩ 0#32 (by decide) _ _
    (fun k => by rw [val_main_v4_apply, val_main_c_apply]) _ p q u]
  rw [affine_apply, hl, hr]
  unfold Cert.Energy.energyAt
  by_cases h0 : q.val = 0
  · rw [if_pos h0, if_pos h0, if_neg (by show ¬ q.val = 4095; omega)]
  · rw [if_neg h0, if_neg h0]

end Cert.ReferenceIdeal.RefEnergy

end
-- ==== Proof.lean ====
/-
  The certificate's claims.

  The kernel multiplies, grid step by grid step, a [64, 256, 128] block of X (rounded to a narrower format, which is
  the identity on the extended reals) with K, adds the row vector b, and on the first and the last step adds one more
  row vector to the first, respectively the last, row of the block; the reference contracts X with K in one piece,
  adds b, and adds the two row vectors on rows 0 and 4095 of the middle axis by two scatters. At the extended reals
  both results are the array

      E[p, q, u] = (∑ₖ X[p, q, k] · K[k, u]) + b[u]   (+ l[u] where q = 0, + r[u] where q = 4095),

  every sum associated the same way on the two sides, so the equality needs no finiteness of the inputs.

  The three frames are the two kernels' generated frame runs and the reference's generated run with its result dropped;
  nothing was rewritten between the kernel and its idealization.
-/
import proofs.«159666_j48103633715862_1_alg».proof.Defs
import proofs.«159666_j48103633715862_1_alg».proof.Proof.Gen.Kernel
import proofs.«159666_j48103633715862_1_alg».proof.Proof.Gen.Kernel.Frame
import proofs.«159666_j48103633715862_1_alg».proof.Proof.Gen.KernelIdeal
import proofs.«159666_j48103633715862_1_alg».proof.Proof.Gen.KernelIdeal.Frame
import proofs.«159666_j48103633715862_1_alg».proof.Proof.Gen.KernelIdeal.Value
import proofs.«159666_j48103633715862_1_alg».proof.Proof.Gen.ReferenceIdeal
import proofs.«159666_j48103633715862_1_alg».proof.Proof.Gen.ReferenceIdeal.Run
import proofs.«159666_j48103633715862_1_alg».proof.Proof.Gen.ReferenceIdeal.Read
import proofs.«159666_j48103633715862_1_alg».proof.Proof.Gen.Pre_finite_inputs
import proofs.«159666_j48103633715862_1_alg».proof.Proof.ArrayValue
import proofs.«159666_j48103633715862_1_alg».proof.Proof.RefEnergy

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments, the kernel's result array and the reference's both end at the
    specification's array of those arguments. -/
theorem algebraic : Cert.algebraic_KernelIdeal_ReferenceIdeal := by
  intro m ρ m' ρ' _ hagree
  refine ⟨fun c => Cert.KernelIdeal.BlockValue.G m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefEnergy.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
